-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x4096x2048 .f32) (main_arg1 : FVec F S2048x2048 .f32) (main_arg2 : FVec F S2048 .f32) (main_arg3 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 11
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x2048_S16384x2048 : S4x4096x2048.ShapeCasts S16384x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S1x1x2048 : Shape := ⟨3, ![1, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S4x4096x2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LibRealSum.lean ====
/-
  Real numbers inside the extended reals, and moving a factor across a finite sum.

  The extended reals are not a semiring: `(1 + -1) * ⊤ = 0` while `1 * ⊤ + -1 * ⊤ = ⊥`, so a factor does not move
  across a sum in general. It does when every term and the factor are real numbers. Here: arrays that hold real
  numbers only (`AllReal`), the inclusion of the reals commuting with finite sums (`coe_sum`), and the two laws
  `(∑ k, a k * w k) * s = ∑ k, a k * (w k * s)` and `s * (∑ k, a k * w k) = ∑ k, (s * a k) * w k` for real `a`, `w`, `s`
  — what joins "multiply, then scale the result" to "scale an operand, then multiply".
-/
import Mathlib.Data.EReal.Operations
import Mathlib.Algebra.BigOperators.Ring.Finset

noncomputable section

namespace Cert.RealSum

/-- An array of extended reals that holds real numbers only. -/
def AllReal {ι : Type} (a : ι → EReal) : Prop := ∀ i, a i ≠ ⊤ ∧ a i ≠ ⊥

/-- The inclusion of the reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Among real numbers a right factor moves across a sum of products. -/
theorem sum_mul_coe {ι : Type} [Fintype ι] (a w : ι → ℝ) (s : ℝ) :
    (∑ k, (a k : EReal) * (w k : EReal)) * (s : EReal) = ∑ k, (a k : EReal) * ((w k : EReal) * (s : EReal)) := by
  simp only [← EReal.coe_mul, ← coe_sum]
  congr 1
  rw [Finset.sum_mul]
  exact Finset.sum_congr rfl fun k _ => mul_assoc _ _ _

/-- A real right factor moves across a sum of products of real extended reals, onto the second factor of each term. -/
theorem sum_mul_of_real {ι : Type} [Fintype ι] (a w : ι → EReal) (s : EReal) (ha : AllReal a) (hw : AllReal w)
    (hs : s ≠ ⊤ ∧ s ≠ ⊥) : (∑ k, a k * w k) * s = ∑ k, a k * (w k * s) := by
  have ea : a = fun k => ((a k).toReal : EReal) := funext fun k => (EReal.coe_toReal (ha k).1 (ha k).2).symm
  have ew : w = fun k => ((w k).toReal : EReal) := funext fun k => (EReal.coe_toReal (hw k).1 (hw k).2).symm
  have es : s = (s.toReal : EReal) := (EReal.coe_toReal hs.1 hs.2).symm
  rw [ea, ew, es]
  exact sum_mul_coe _ _ _

/-- Among real numbers a left factor moves across a sum of products. -/
theorem mul_sum_coe {ι : Type} [Fintype ι] (a w : ι → ℝ) (s : ℝ) :
    (s : EReal) * (∑ k, (a k : EReal) * (w k : EReal)) = ∑ k, ((s : EReal) * (a k : EReal)) * (w k : EReal) := by
  simp only [← EReal.coe_mul, ← coe_sum]
  congr 1
  rw [Finset.mul_sum]
  exact Finset.sum_congr rfl fun k _ => (mul_assoc _ _ _).symm

/-- A real left factor moves across a sum of products of real extended reals, onto the first factor of each term. -/
theorem mul_sum_of_real {ι : Type} [Fintype ι] (a w : ι → EReal) (s : EReal) (ha : AllReal a) (hw : AllReal w)
    (hs : s ≠ ⊤ ∧ s ≠ ⊥) : s * (∑ k, a k * w k) = ∑ k, (s * a k) * w k := by
  have ea : a = fun k => ((a k).toReal : EReal) := funext fun k => (EReal.coe_toReal (ha k).1 (ha k).2).symm
  have ew : w = fun k => ((w k).toReal : EReal) := funext fun k => (EReal.coe_toReal (hw k).1 (hw k).2).symm
  have es : s = (s.toReal : EReal) := (EReal.coe_toReal hs.1 hs.2).symm
  rw [ea, ew, es]
  exact mul_sum_coe _ _ _

end Cert.RealSum

end
-- ==== Proof.Spec.lean ====
/-
  The scaled linear layer, as a function of its four argument arrays, in the two arrangements the two programs
  compute it in, and the law that makes them one function on real inputs.

  With `x : [4, 4096, 2048]`, `w : [2048, 2048]` (one row per output feature), `s` and `bias : [2048]`, entry
  `(b, r, n)` of the result is
    * `(∑ k, x (b, r, k) * w (n, k)) * s n + bias n`      — the product first, its column scaled afterwards;
    * `(∑ k, x (b, r, k) * (w (n, k) * s n)) + bias n`    — the weights scaled first, then the product.
  On the extended reals a factor does not move across a sum in general (`(1 - 1) * ⊤ = 0` but `⊤ - ⊤ = ⊥`), so
  the two agree only where `x`, `w` and `s` hold real numbers; `bias` may be anything.
-/
import proofs.«178628_j55130200212236_2_alg».proof.Proof.LibRealSum
import Idealize.ShloMosaic.PureOps.Ideal
import Idealize.ShloMosaic.Lib.ValueIdx

noncomputable section

namespace Cert.ScaledLinear

open Idealize.ShloMosaic Idealize.ShloMosaic.ValueIdx Cert.RealSum

/-- The activations' shape, the weights' shape and the shape of the two per-feature vectors. -/
abbrev SX : Shape := ⟨3, ![4, 4096, 2048]⟩
abbrev SW : Shape := ⟨2, ![2048, 2048]⟩
abbrev SV : Shape := ⟨1, ![2048]⟩

/-- Entry `(b, r, n)` with the product taken first and its column scaled afterwards. -/
def productScaledAt (x : SX.Idx → EReal) (w : SW.Idx → EReal) (s bias : SV.Idx → EReal)
    (b : Fin 4) (r : Fin 4096) (n : Fin 2048) : EReal :=
  (∑ k : Fin 2048, x (ix3 b r k) * w (ix2 n k)) * s (ix1 n) + bias (ix1 n)

/-- Entry `(b, r, n)` with the weights scaled first. -/
def weightsScaledAt (x : SX.Idx → EReal) (w : SW.Idx → EReal) (s bias : SV.Idx → EReal)
    (b : Fin 4) (r : Fin 4096) (n : Fin 2048) : EReal :=
  (∑ k : Fin 2048, x (ix3 b r k) * (w (ix2 n k) * s (ix1 n))) + bias (ix1 n)

/-- The whole result, weights scaled first: the function both programs are shown to compute. -/
def weightsScaled (x : SX.Idx → EReal) (w : SW.Idx → EReal) (s bias : SV.Idx → EReal) : SX.Idx → EReal :=
  fun i => weightsScaledAt x w s bias (i 0) (i 1) (i 2)

/-- On real activations, weights and scales the two arrangements agree, entry by entry. -/
theorem productScaledAt_eq (x : SX.Idx → EReal) (w : SW.Idx → EReal) (s bias : SV.Idx → EReal)
    (hx : AllReal x) (hw : AllReal w) (hs : AllReal s) (b : Fin 4) (r : Fin 4096) (n : Fin 2048) :
    productScaledAt x w s bias b r n = weightsScaledAt x w s bias b r n := by
  unfold productScaledAt weightsScaledAt
  rw [sum_mul_of_real (fun k => x (ix3 b r k)) (fun k => w (ix2 n k)) (s (ix1 n)) (fun k => hx _) (fun k => hw _) (hs _)]

end Cert.ScaledLinear

end
-- ==== Proof.Reference.lean ====
/-
  The reference program computes the scaled linear layer with the weights scaled first.

  Its seven host operations, read one at a time at entry `(b, r, n)` of the result: the scale vector is spread
  along the rows of a `[2048, 2048]` matrix (entry `(n, k)` is `s n`), multiplied into the weights entry by entry,
  the activations are contracted with that matrix along their last axis against its second, and the bias, spread
  over the two leading axes, is added. That is `(∑ k, x (b, r, k) * (w (n, k) * s n)) + bias n`.
-/
import proofs.«178628_j55130200212236_2_alg».proof.Proof.Gen.ReferenceIdeal.Read
import proofs.«178628_j55130200212236_2_alg».proof.Proof.Spec

noncomputable section

namespace Cert.ScaledLinear.Reference

open Idealize.ShloMosaic Idealize.ShloMosaic.ValueIdx Cert.ReferenceIdeal Cert.ReferenceIdeal.Read

/-- The reference's result at entry `(b, r, n)`. -/
theorem result_apply (x : (⟨S4x4096x2048, .f32⟩ : BufTy).Contents (Elt Ideal)) (w : (⟨S2048x2048, .f32⟩ : BufTy).Contents (Elt Ideal))
    (s bias : (⟨S2048, .f32⟩ : BufTy).Contents (Elt Ideal)) (b : Fin 4) (r : Fin 4096) (n : Fin 2048) :
    val_main_v6 (F := Ideal) x w s bias (ix3 b r n) = weightsScaledAt x w s bias b r n := by
  have el : ∀ k : Fin 2048, lidx_main_v3 (ix3 b r n) k = ix3 b r k := fun k => funext fun a => Fin.ext (by
    match a with | ⟨0, _⟩ => rfl | ⟨1, _⟩ => rfl | ⟨2, _⟩ => rfl)
  have er : ∀ k : Fin 2048, ridx_main_v3 (ix3 b r n) k = ix2 n k := fun k => funext fun a => Fin.ext (by
    match a with | ⟨0, _⟩ => rfl | ⟨1, _⟩ => rfl)
  have es : ∀ k : Fin 2048, idx_main_v0 (idx_main_v1 (ix2 n k)) = ix1 n := fun k => funext fun a => Fin.ext (by
    match a with | ⟨0, _⟩ => rfl)
  have eb : idx_main_v4 (idx_main_v5 (ix3 b r n)) = ix1 n := funext fun a => Fin.ext (by
    match a with | ⟨0, _⟩ => rfl)
  rw [val_main_v6_apply, val_main_v3_apply, val_main_v5_apply, val_main_v4_apply]
  simp only [val_main_v2_apply, val_main_v1_apply, val_main_v0_apply, el, er, es, eb, Ideal.mulf_def, Ideal.addf_def]
  rfl

/-- The reference's result is the specification. -/
theorem result_eq (x : (⟨S4x4096x2048, .f32⟩ : BufTy).Contents (Elt Ideal)) (w : (⟨S2048x2048, .f32⟩ : BufTy).Contents (Elt Ideal))
    (s bias : (⟨S2048, .f32⟩ : BufTy).Contents (Elt Ideal)) :
    val_main_v6 (F := Ideal) x w s bias = weightsScaled x w s bias := by
  funext i
  have e : i = ix3 (i 0) (i 1) (i 2) := eq_ix3 i
  exact (congrArg (val_main_v6 (F := Ideal) x w s bias) e).trans (result_apply x w s bias (i 0) (i 1) (i 2))

end Cert.ScaledLinear.Reference

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.Found.lean ====
/-
  What the region finds in the arrays it stages, in terms of the program's arguments.

  Before the region the program flattens the activations `[4, 4096, 2048]` to `[16384, 2048]` (row `b * 4096 + r`
  of the flat array is row `(b, r)`), transposes the weights (entry `(k, n)` of the transpose is `w (n, k)`; the
  change of float format after it is the identity at the exact values), and views the scale and the bias as
  `1 × 2048` rows.
-/
import proofs.«178628_j55130200212236_2_alg».proof.Proof.Gen.KernelIdeal.Frame
import proofs.«178628_j55130200212236_2_alg».proof.Proof.LibRank3
import proofs.«178628_j55130200212236_2_alg».proof.Proof.LibVecRow
import Idealize.ShloMosaic.Lib.Pipeline.Value
import Idealize.ShloMosaic.Lib.ValueIdx
import Idealize.ShloMosaic.Lib.ValueLayout
import Idealize.ShloMosaic.Lib.StableHlo.Run

noncomputable section

namespace Cert.ScaledLinear.Found

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened activations. -/
theorem rows_eq (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The transposed weights. -/
theorem weightsT_eq (c : Dev nD) : (V m c main_v2 : S2048x2048.Idx → EReal)
    = (truncf (F := Ideal) .bf16 (transpose S2048x2048 [1, 0] (m ((c : Thread nD τ).loc main_arg1) : S2048x2048.Idx → EReal)
        transposes_S2048x2048_S2048x2048_1_0 : FVec Ideal S2048x2048 .f32) bitsLt_bf16_f32 : S2048x2048.Idx → EReal) := by
  show StableHlo.after hostOps0 (fun b => m (c, b)) (Proc.devRef .tc main_v2) = _
  after_results

/-- The scale as a row. -/
theorem scaleRow_eq (c : Dev nD) : (V m c main_v3 : S1x2048.Idx → EReal)
    = shapeCast S1x2048 (m ((c : Thread nD τ).loc main_arg2)) shapeCasts_S2048_S1x2048 := by
  show StableHlo.after hostOps0 (fun b => m (c, b)) (Proc.devRef .tc main_v3) = _
  after_results
  rfl

/-- The bias as a row. -/
theorem biasRow_eq (c : Dev nD) : (V m c main_v4 : S1x2048.Idx → EReal)
    = shapeCast S1x2048 (m ((c : Thread nD τ).loc main_arg3)) shapeCasts_S2048_S1x2048 := by
  show StableHlo.after hostOps0 (fun b => m (c, b)) (Proc.devRef .tc main_v4) = _
  after_results
  rfl

/-- Row `b * 4096 + r` of the flattened activations is row `(b, r)` of the activations. -/
theorem rows_apply (c : Dev nD) (b : Fin 4) (r : Fin 4096) (k : Fin 2048) :
    (V m c main_v0 : S16384x2048.Idx → EReal) (ix2 (Cert.Rank3.flat (n := 16384) rfl b r) k)
      = (m ((c : Thread nD τ).loc main_arg0) : S4x4096x2048.Idx → EReal) (ix3 b r k) := by
  rw [rows_eq]
  exact Cert.Rank3.shapeCast_abc_nc_apply (n := 16384) rfl _ _ b r k

/-- Entry `(k, n)` of the transposed weights is entry `(n, k)` of the weights. -/
theorem weightsT_apply (c : Dev nD) (k n : Fin 2048) :
    (V m c main_v2 : S2048x2048.Idx → EReal) (ix2 k n)
      = (m ((c : Thread nD τ).loc main_arg1) : S2048x2048.Idx → EReal) (ix2 n k) := by
  rw [weightsT_eq, truncf_apply]
  exact transpose_ix2_apply _ _ k n

/-- Entry `(0, n)` of the scale row is entry `n` of the scale. -/
theorem scaleRow_apply (c : Dev nD) (n : Fin 2048) :
    (V m c main_v3 : S1x2048.Idx → EReal) (ix2 (0 : Fin 1) n)
      = (m ((c : Thread nD τ).loc main_arg2) : S2048.Idx → EReal) (ix1 n) := by
  rw [scaleRow_eq]
  exact Cert.VecRow.row_of_vec_apply _ _ 0 n

/-- Entry `(0, n)` of the bias row is entry `n` of the bias. -/
theorem biasRow_apply (c : Dev nD) (n : Fin 2048) :
    (V m c main_v4 : S1x2048.Idx → EReal) (ix2 (0 : Fin 1) n)
      = (m ((c : Thread nD τ).loc main_arg3) : S2048.Idx → EReal) (ix1 n) := by
  rw [biasRow_eq]
  exact Cert.VecRow.row_of_vec_apply _ _ 0 n

end Cert.ScaledLinear.Found

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.Body.lean ====
/-
  What the kernel body stores, entry by entry.

  At one grid point the body loads a block of 512 rows of the flattened activations, the whole
  `[2048, 2048]` matrix of transposed weights, and the scale and the bias as `1 × 2048` rows; it multiplies the
  block into the matrix with a zero accumulator, multiplies every row of the product by the scale row, adds the
  bias row to every row, and stores the result over the whole output block. At the exact values the changes of
  float format do nothing, so entry `(p, q)` of what is stored is
  `(∑ k, block (p, k) * weightsT (k, q)) * scale (0, q) + bias (0, q)`.
-/
import proofs.«178628_j55130200212236_2_alg».proof.Proof.Gen.KernelIdeal.Skeleton
import proofs.«178628_j55130200212236_2_alg».proof.Proof.LibMatmul
import proofs.«178628_j55130200212236_2_alg».proof.Proof.LibRowBroadcast
import Idealize.ShloMosaic.Lib.Pipeline.Value
import Idealize.ShloMosaic.Lib.ValueIdx

noncomputable section

namespace Cert.ScaledLinear.Body

open Idealize.ShloMosaic Idealize.ShloMosaic.ValueIdx Cert.KernelIdeal Cert.KernelIdeal.Gen

/-- The body's product: rows of the left block against columns of the right matrix. -/
theorem product_apply (l : FVec Ideal S512x2048 .bf16) (r : FVec Ideal S2048x2048 .bf16) (p : Fin 512) (q : Fin 2048) :
    matmul dot_S512x2048_S2048x2048_S512x2048_1_0_0_1_n_n none l r (constant S512x2048 .f32 0x00000000#32) (ix2 p q)
      = ∑ k : Fin 2048, l (ix2 p k) * r (ix2 k q) :=
  Cert.PlainDot.matmul_zero_apply dot_S512x2048_S2048x2048_S512x2048_1_0_0_1_n_n none rfl rfl
    (fun i c => by
      unfold DotDims.lhsIdx
      rw [dif_neg (show ¬(0 : Fin S512x2048.rank) ∈ dot_S512x2048_S2048x2048_S512x2048_1_0_0_1_n_n.lhsBatch by decide),
        dif_pos (show (0 : Fin S512x2048.rank) ∈ dot_S512x2048_S2048x2048_S512x2048_1_0_0_1_n_n.lhsNonContracting by decide)]
      rfl)
    (fun i c => dot_S512x2048_S2048x2048_S512x2048_1_0_0_1_n_n.lhsIdx_val_of_single rfl i c)
    (fun i c => dot_S512x2048_S2048x2048_S512x2048_1_0_0_1_n_n.rhsIdx_val_of_single rfl i c)
    (fun i c => by
      unfold DotDims.rhsIdx
      rw [dif_neg (show ¬(1 : Fin S2048x2048.rank) ∈ dot_S512x2048_S2048x2048_S512x2048_1_0_0_1_n_n.rhsBatch by decide),
        dif_pos (show (1 : Fin S2048x2048.rank) ∈ dot_S512x2048_S2048x2048_S512x2048_1_0_0_1_n_n.rhsNonContracting by decide)]
      rfl)
    l r p q

/-- Entry `(p, q)` of what the body stores. -/
theorem stored_apply (x0 : Vec Ideal S512x2048 .f32) (x1 : Vec Ideal S2048x2048 .bf16) (x2 x3 : Vec Ideal S1x2048 .f32)
    (p : Fin 512) (q : Fin 2048) :
    k0_pay1 (F := Ideal) x0 x1 x2 x3 (ix2 p q)
      = (∑ k : Fin 2048, x0 (ix2 p k) * x1 (ix2 k q)) * x2 (ix2 (0 : Fin 1) q) + x3 (ix2 (0 : Fin 1) q) := by
  unfold k0_pay1
  simp only [shapeCast_self]
  rw [addf_apply, mulf_apply, product_apply, Cert.RowBroadcast.broadcastTo_1b_ab_apply,
    Cert.RowBroadcast.broadcastTo_1b_ab_apply]
  rfl

/-- The same at any index of the block. -/
theorem stored_at (x0 : Vec Ideal S512x2048 .f32) (x1 : Vec Ideal S2048x2048 .bf16) (x2 x3 : Vec Ideal S1x2048 .f32)
    (j : S512x2048.Idx) :
    k0_pay1 (F := Ideal) x0 x1 x2 x3 j
      = (∑ k : Fin 2048, x0 (ix2 (j 0) k) * x1 (ix2 k (j 1))) * x2 (ix2 (0 : Fin 1) (j 1)) + x3 (ix2 (0 : Fin 1) (j 1)) := by
  have e : j = ix2 (j 0) (j 1) := eq_ix2 j
  exact (congrArg (k0_pay1 (F := Ideal) x0 x1 x2 x3) e).trans (stored_apply x0 x1 x2 x3 (j 0) (j 1))

end Cert.ScaledLinear.Body

end
-- ==== Proof.Blocks.lean ====
/-
  From the blocks the grid points write to the whole output array of the region.

  The grid has 32 points; point `t` stages rows `512 t … 512 t + 511` of the flattened activations, the whole
  matrix of transposed weights, the scale row and the bias row, and writes back rows `512 t … 512 t + 511` of the
  output. So what point `t` writes back is block `t` of ONE function of the arrays the region finds: entry
  `(i, n)` is `(∑ k, rows (i, k) * weightsT (k, n)) * scaleRow (0, n) + biasRow (0, n)`. The 32 row blocks cover the
  `16384` rows (row `i` is in block `i / 512`), so the output array ends holding that function.
-/
import proofs.«178628_j55130200212236_2_alg».proof.Proof.Gen.KernelIdeal.Frame
import proofs.«178628_j55130200212236_2_alg».proof.Proof.Body
import Idealize.ShloMosaic.Lib.Pipeline.Value
import Idealize.ShloMosaic.Lib.ValueIdx
import Idealize.ShloMosaic.Lib.Tactic

noncomputable section

namespace Cert.ScaledLinear.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The arrays the region finds, as arrays of extended reals: the flattened activations, the transposed weights, the
    scale row and the bias row. -/
abbrev rows (c : Dev nD) : S16384x2048.Idx → EReal := V m c main_v0
abbrev weightsT (c : Dev nD) : S2048x2048.Idx → EReal := V m c main_v2
abbrev scaleRow (c : Dev nD) : S1x2048.Idx → EReal := V m c main_v3
abbrev biasRow (c : Dev nD) : S1x2048.Idx → EReal := V m c main_v4

/-- Entry `(i, n)` of the region's output, from the arrays the region finds. -/
def flatAt (c : Dev nD) (i : Fin 16384) (n : Fin 2048) : EReal :=
  (∑ k : Fin 2048, rows m c (ix2 i k) * weightsT m c (ix2 k n)) * scaleRow m c (ix2 (0 : Fin 1) n)
    + biasRow m c (ix2 (0 : Fin 1) n)

/-- The region's output as one function of the arrays the region finds. -/
def flatResult (c : Dev nD) : S16384x2048.Idx → EReal := fun i => flatAt m c (i 0) (i 1)

theorem zero_offsets : (![0, 0] : Fin 2 → Nat) = fun _ => 0 := funext fun a => by fin_cases a <;> rfl

/-- The printed index maps over the grid: the activations' and the output's block row is the point's number, every
    other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activations' block at point `t` is rows `512 t …` of the flattened activations. -/
theorem rowsBlock_apply (c : Dev nD) (t : Fin cfg0.N) (y : S512x2048.Idx) (i : S16384x2048.Idx)
    (h0 : (i 0).val = t.val * 512 + (y 0).val) (h1 : (i 1).val = (y 1).val) :
    (iblk m c 0 t : Vec Ideal S512x2048 .f32) y = (V m c main_v0 : S16384x2048.Idx → EReal) i := by
  obtain ⟨e0, e1, -⟩ := index_facts t
  unfold iblk
  rw [View.read_apply]
  show V m c main_v0 _ = V m c main_v0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

/-- The weights' block at every point is the whole matrix of transposed weights. -/
theorem weightsBlock_apply (c : Dev nD) (t : Fin cfg0.N) (y : S2048x2048.Idx) :
    (iblk m c 1 t : Vec Ideal S2048x2048 .bf16) y = (V m c main_v2 : S2048x2048.Idx → EReal) y := by
  obtain ⟨-, -, e0, e1, -⟩ := index_facts t
  unfold iblk
  rw [View.read_apply]
  show V m c main_v2 _ = V m c main_v2 _
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- The scale's block at every point is the whole scale row. -/
theorem scaleBlock_apply (c : Dev nD) (t : Fin cfg0.N) (y : S1x2048.Idx) :
    (iblk m c 2 t : Vec Ideal S1x2048 .f32) y = (V m c main_v3 : S1x2048.Idx → EReal) y := by
  obtain ⟨-, -, -, -, e0, e1, -⟩ := index_facts t
  unfold iblk
  rw [View.read_apply]
  show V m c main_v3 _ = V m c main_v3 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- The bias's block at every point is the whole bias row. -/
theorem biasBlock_apply (c : Dev nD) (t : Fin cfg0.N) (y : S1x2048.Idx) :
    (iblk m c 3 t : Vec Ideal S1x2048 .f32) y = (V m c main_v4 : S1x2048.Idx → EReal) y := by
  obtain ⟨-, -, -, -, -, -, e0, e1, -⟩ := index_facts t
  unfold iblk
  rw [View.read_apply]
  show V m c main_v4 _ = V m c main_v4 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 2048 + 1 * (y 1).val = (y 1).val; rw [e1]; omega

/-- What point `t` writes back is block `t` of `flatResult`. -/
theorem flushed_eq (c : Dev nD) (t : Fin cfg0.N) :
    (dats m 0 c).flushed 4 t = ((cfg0.win 4).blk t).view.read (Elt Ideal) (flatResult m c) := by
  show (cfg0.win 4).cut (grid0.coords t) ((dats m 0 c).after 4 t) = _
  rw [after0_4]
  unfold out0_4
  rw [View.canon_unit_zero zero_offsets]
  simp only [View.ld_unit_zero (S := S512x2048) zero_offsets, View.ld_unit_zero (S := S2048x2048) zero_offsets,
    View.ld_unit_zero (S := S1x2048) zero_offsets]
  obtain ⟨-, -, -, -, -, -, -, -, e0, e1⟩ := index_facts t
  funext j
  show k0_pay1 (F := Ideal) (iblk m c 0 t) (iblk m c 1 t) (iblk m c 2 t) (iblk m c 3 t) j
    = flatResult m c (((cfg0.win 4).blk t).view.emb j)
  refine (Cert.ScaledLinear.Body.stored_at (iblk m c 0 t) (iblk m c 1 t) (iblk m c 2 t) (iblk m c 3 t) j).trans ?_
  have hj0 : (j 0).val < 512 := (j 0).isLt
  have hj1 : (j 1).val < 2048 := (j 1).isLt
  have r0 : ((((cfg0.win 4).blk t).view.emb j) 0).val = t.val * 512 + (j 0).val := by
    show win0_4.index t (0 : Fin 2) * 512 + 1 * (j 0).val = _; rw [e0]; omega
  have r1 : ((((cfg0.win 4).blk t).view.emb j) 1).val = (j 1).val := by
    show win0_4.index t (1 : Fin 2) * 2048 + 1 * (j 1).val = _; rw [e1]; omega
  have c1 : (((cfg0.win 4).blk t).view.emb j) 1 = j 1 := Fin.ext r1
  unfold flatResult flatAt
  rw [c1]
  refine congrArg₂ (· + ·) (congrArg₂ (· * ·) (Finset.sum_congr rfl fun k _ => congrArg₂ (· * ·) ?_ ?_) ?_) ?_
  · exact rowsBlock_apply m c t (ix2 (j 0) k) (ix2 ((((cfg0.win 4).blk t).view.emb j) 0) k) r0 rfl
  · exact weightsBlock_apply m c t (ix2 k (j 1))
  · exact scaleBlock_apply m c t (ix2 (0 : Fin 1) (j 1))
  · exact biasBlock_apply m c t (ix2 (0 : Fin 1) (j 1))

/-- An index of the output is in point `t`'s block iff each coordinate is in the block's range on its axis. -/
theorem mem_block (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v5).slice (win0_4.rect t)).set ↔ _
  rw [View.set_slice_whole, Rect.mem_set_unit]
  exact Iff.rfl

/-- Every index of the output is in some point's block: row `i` in block `i / 512`. -/
theorem covered (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  let t : Fin cfg0.N := ⟨(i 0).val / 512, by rw [show cfg0.N = 32 from N_0]; omega⟩
  obtain ⟨-, -, -, -, -, -, -, -, e0, e1⟩ := index_facts t
  have ht : t.val = (i 0).val / 512 := rfl
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 2048 ≤ (i 1).val ∧ (i 1).val < win0_4.index t (1 : Fin 2) * 2048 + 2048
    rw [e1]; omega

/-- The region's output array after the last point. -/
theorem final (c : Dev nD) : (dats m 0 c).arrAt 4 cfg0.N = flatResult m c :=
  (dats m 0 c).arrAt_eq_of_cover 4 (flatResult m c) (fun t _ => flushed_eq m c t) covered

end Cert.ScaledLinear.Blocks

end
-- ==== Proof.Kernel.lean ====
/-
  The kernel program's result.

  After the region the program views the region's `[16384, 2048]` output as `[4, 4096, 2048]`: entry `(b, r, n)` is
  row `b * 4096 + r`, column `n`. Put together with what the region finds (the flattened activations, the
  transposed weights, the scale and bias rows) and what it leaves (the blocks' function), entry `(b, r, n)` of the
  result is `(∑ k, x (b, r, k) * w (n, k)) * s n + bias n` — the product first, its column scaled afterwards —
  which on real inputs is the specification.
-/
import proofs.«178628_j55130200212236_2_alg».proof.Proof.Gen.KernelIdeal.Frame
import proofs.«178628_j55130200212236_2_alg».proof.Proof.Spec
import proofs.«178628_j55130200212236_2_alg».proof.Proof.Found
import proofs.«178628_j55130200212236_2_alg».proof.Proof.Blocks
import proofs.«178628_j55130200212236_2_alg».proof.Proof.LibRank3
import Idealize.ShloMosaic.Lib.Pipeline.Value
import Idealize.ShloMosaic.Lib.ValueIdx
import Idealize.ShloMosaic.Lib.StableHlo.Run

noncomputable section

namespace Cert.ScaledLinear.Kernel

open Idealize.ShloMosaic Idealize.ShloMosaic.TcCoe Idealize.ShloMosaic.ValueIdx Idealize.SL.Sem
open Cert.KernelIdeal Cert.KernelIdeal.Gen Cert.RealSum

variable (m : (ℓ : Loc nD τ sig) → Buf (Elt Ideal) ℓ) (ρ : Dev nD → PrngReg)

/-- The program's result: the region's output viewed as `[4, 4096, 2048]`. -/
def result (c : Dev nD) : S4x4096x2048.Idx → EReal :=
  shapeCast S4x4096x2048 (Cert.ScaledLinear.Blocks.flatResult m c) shapeCasts_S16384x2048_S4x4096x2048

/-- What the host operation after the region leaves in the result buffer. -/
theorem tail_eq (c : Dev nD) :
    (Pipeline.afterTail₀ cfgs (dats m) 0 (V0 m) [hostOps1] c main_v6 : S4x4096x2048.Idx → EReal) = result m c := by
  unfold Pipeline.afterTail₀
  show StableHlo.after hostOps1 _ (Proc.devRef .tc main_v6) = _
  after_results
  unfold result
  exact congrArg (fun z => shapeCast S4x4096x2048 z shapeCasts_S16384x2048_S4x4096x2048)
    ((Pipeline.withArrays_arr spec0 launch0.win.arr_inj c _ _ 4).trans (Cert.ScaledLinear.Blocks.final m c))

/-- Entry `(b, r, n)` of the result, from the program's arguments. -/
theorem result_apply (c : Dev nD) (b : Fin 4) (r : Fin 4096) (n : Fin 2048) :
    result m c (ix3 b r n)
      = productScaledAt (m ((c : Thread nD τ).loc main_arg0)) (m ((c : Thread nD τ).loc main_arg1))
          (m ((c : Thread nD τ).loc main_arg2)) (m ((c : Thread nD τ).loc main_arg3)) b r n := by
  unfold result
  rw [Cert.Rank3.shapeCast_nc_abc_apply (n := 16384) rfl _ _ b r n]
  show Cert.ScaledLinear.Blocks.flatAt m c (Cert.Rank3.flat (n := 16384) rfl b r) n = _
  unfold Cert.ScaledLinear.Blocks.flatAt productScaledAt
  exact congrArg₂ (· + ·) (congrArg₂ (· * ·)
    (Finset.sum_congr rfl fun k _ => congrArg₂ (· * ·) (Cert.ScaledLinear.Found.rows_apply m c b r k)
      (Cert.ScaledLinear.Found.weightsT_apply m c k n))
    (Cert.ScaledLinear.Found.scaleRow_apply m c n)) (Cert.ScaledLinear.Found.biasRow_apply m c n)

/-- On real activations, weights and scale the result is the specification. -/
theorem result_eq (c : Dev nD)
    (hx : AllReal (m ((c : Thread nD τ).loc main_arg0) : SX.Idx → EReal))
    (hw : AllReal (m ((c : Thread nD τ).loc main_arg1) : SW.Idx → EReal))
    (hs : AllReal (m ((c : Thread nD τ).loc main_arg2) : SV.Idx → EReal)) :
    result m c = weightsScaled (m ((c : Thread nD τ).loc main_arg0)) (m ((c : Thread nD τ).loc main_arg1))
      (m ((c : Thread nD τ).loc main_arg2)) (m ((c : Thread nD τ).loc main_arg3)) := by
  funext i
  have e : i = ix3 (i 0) (i 1) (i 2) := eq_ix3 i
  exact (congrArg (result m c) e).trans ((result_apply m c (i 0) (i 1) (i 2)).trans
    (productScaledAt_eq _ _ _ _ hx hw hs (i 0) (i 1) (i 2)))

/-- The program's run: every weakly fair execution terminates, the result buffer at `result`, the arguments unchanged. -/
theorem run : θ_run defs (onTc (τ := τ) (main (F := Ideal))) ⟨m, fun _ => 0, ρ⟩ fun r => ∀ c : Dev nD,
      (r.2.mem ((c.tc : Thread nD τ).loc main_v6) : S4x4096x2048.Idx → EReal) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ScaledLinear.Kernel

end
-- ==== Proof.Finite.lean ====
/-
  The precondition says every float input is finite; here that is read entry by entry.

  The printed precondition is the conjunction, over the four arguments, of "every entry's absolute value is below
  +∞" (`|a| < +∞` reduced over all axes by `and`). At the exact values `|a| = max a (-a)` is below `⊤` exactly when
  `a` is neither `⊤` nor `⊥`: when `a` is a real number.
-/
import proofs.«178628_j55130200212236_2_alg».proof.Proof.Gen.Pre_finite_inputs
import proofs.«178628_j55130200212236_2_alg».proof.Proof.Spec
import Idealize.ShloMosaic.Lib.Affine
import Idealize.ShloMosaic.Lib.ReduceAll
import Idealize.ShloMosaic.Lib.ValueIdx
import Idealize.ShloMosaic.PureOps.Ideal

noncomputable section

namespace Cert.ScaledLinear.Finite

open Idealize.ShloMosaic Idealize.ShloMosaic.ValueIdx Cert.Pre_finite_inputs

instance : Subsingleton S_.Idx := ⟨fun a b => funext fun d => d.elim0⟩

/-- The word `0x7F800000` is `+∞`. -/
theorem inf_word : Ideal.ofBits .f32 0x7F800000#32 = (⊤ : EReal) := by simp [Ideal.ofBits, Ideal.ieee]

/-- An extended real whose absolute value is below `+∞` is a real number. -/
theorem real_of_abs_lt (a : EReal) (h : Ideal.cmp .olt (max a (-a)) (Ideal.ofBits .f32 0x7F800000#32) = 1#1) :
    a ≠ ⊤ ∧ a ≠ ⊥ := by
  rw [inf_word] at h
  induction a using EReal.rec with
  | bot => simp [Ideal.cmp] at h
  | coe r => exact ⟨EReal.coe_ne_top r, EReal.coe_ne_bot r⟩
  | top => simp [Ideal.cmp] at h

/-- An array whose "all entries finite" test is one holds real numbers only. -/
theorem allReal_of_all {s : Shape} {axes : List (Fin s.rank)} (a : FVec Ideal s .f32) (bc : S_.BroadcastsInDim s (![] : Fin 0 → Fin s.rank))
    (h : s.ReducesTo axes S_) (hu : 0 < S_.numel) (init : IVec S_ 1)
    (e : Host.reduce IntOp.andi (cmpf .olt (Host.absf a) (broadcastInDim s ![] bc (constant (F := Ideal) S_ .f32 0x7F800000#32))) init h hu ix0 = 1#1) :
    Cert.RealSum.AllReal a := fun i =>
  real_of_abs_lt (a i) (Host.reduce_andi_all _ init h hu ix0 e i)

/-- Under the precondition the activations, the weights and the scale hold real numbers only. -/
theorem reals_of_pre (x : FVec Ideal S4x4096x2048 .f32) (w : FVec Ideal S2048x2048 .f32) (s bias : FVec Ideal S2048 .f32)
    (hpre : fn (F := Ideal) x w s bias = fun _ => 1#1) :
    Cert.RealSum.AllReal x ∧ Cert.RealSum.AllReal w ∧ Cert.RealSum.AllReal s := by
  have h := congrFun hpre ix0
  dsimp only [fn, fn_part1] at h
  change IntOp.andi _ _ = 1#1 at h
  rw [IntOp.andi_eq_one] at h
  obtain ⟨h, -⟩ := h
  change IntOp.andi _ _ = 1#1 at h
  rw [IntOp.andi_eq_one] at h
  obtain ⟨h, hs⟩ := h
  change IntOp.andi _ _ = 1#1 at h
  rw [IntOp.andi_eq_one] at h
  obtain ⟨hx, hw⟩ := h
  exact ⟨allReal_of_all x _ _ _ _ hx, allReal_of_all w _ _ _ _ hw, allReal_of_all s _ _ _ _ hs⟩

end Cert.ScaledLinear.Finite

end
-- ==== Proof.lean ====
/-
  A linear layer with a per-output-feature scale: `out (b, r, n) = (∑ k, x (b, r, k) * (w (n, k) * s n)) + bias n`
  over `x : [4, 4096, 2048]`, `w : [2048, 2048]`, `s`, `bias : [2048]`.

  The reference scales the weights first and then contracts. The kernel program flattens the activations to
  `[16384, 2048]`, transposes the weights, and on a grid of 32 row blocks of 512 rows multiplies each block into the
  transposed weights, scales every column `n` of the product by `s n` and adds `bias n`; it then views the
  `[16384, 2048]` output as `[4, 4096, 2048]`. So its entry `(b, r, n)` is `(∑ k, x (b, r, k) * w (n, k)) * s n + bias n`.
  The two differ by moving the factor `s n` across the sum, which is sound among real numbers and unsound at the
  infinities of the extended reals: the precondition (every input finite) is what makes the two results equal.

  The modules: `LibRealSum` (a real factor moves across a finite sum of real products), `Spec` (both arrangements and
  the law between them), `Reference` (the reference computes the
  specification), `Body` (what one grid point stores, entry by entry), `Found` (the arrays the region stages, from the
  arguments), `Blocks` (the 32 row blocks are one function's blocks and cover the output), `Kernel` (the program's
  result and its run), `Finite` (the precondition, entry by entry).
-/
import proofs.«178628_j55130200212236_2_alg».proof.Defs
import proofs.«178628_j55130200212236_2_alg».proof.Proof.Gen.Kernel
import proofs.«178628_j55130200212236_2_alg».proof.Proof.Gen.Kernel.Skeleton
import proofs.«178628_j55130200212236_2_alg».proof.Proof.Gen.Kernel.Launch
import proofs.«178628_j55130200212236_2_alg».proof.Proof.Gen.Kernel.Points
import proofs.«178628_j55130200212236_2_alg».proof.Proof.Gen.Kernel.Frame
import proofs.«178628_j55130200212236_2_alg».proof.Proof.Gen.KernelIdeal
import proofs.«178628_j55130200212236_2_alg».proof.Proof.Gen.KernelIdeal.Skeleton
import proofs.«178628_j55130200212236_2_alg».proof.Proof.Gen.KernelIdeal.Launch
import proofs.«178628_j55130200212236_2_alg».proof.Proof.Gen.KernelIdeal.Points
import proofs.«178628_j55130200212236_2_alg».proof.Proof.Gen.KernelIdeal.Frame
import proofs.«178628_j55130200212236_2_alg».proof.Proof.Gen.ReferenceIdeal
import proofs.«178628_j55130200212236_2_alg».proof.Proof.Gen.ReferenceIdeal.Run
import proofs.«178628_j55130200212236_2_alg».proof.Proof.Gen.ReferenceIdeal.Read
import proofs.«178628_j55130200212236_2_alg».proof.Proof.Gen.Pre_finite_inputs
import proofs.«178628_j55130200212236_2_alg».proof.Proof.Spec
import proofs.«178628_j55130200212236_2_alg».proof.Proof.Reference
import proofs.«178628_j55130200212236_2_alg».proof.Proof.Kernel
import proofs.«178628_j55130200212236_2_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel program was rewritten for reading at the exact values. -/
theorem preserves : Cert.preserves_Kernel_KernelIdeal := trivial

/-- Both programs end with the specification in their result buffers: the kernel program by its run and the law that
    moves the scale across the sum (its inputs are real by the precondition), the reference by its run read one
    operation at a time. -/
theorem algebraic : Cert.algebraic_KernelIdeal_ReferenceIdeal := by
  intro m ρ m' ρ' hpre hagree
  refine ⟨fun c => Cert.ScaledLinear.weightsScaled
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.ScaledLinear.Kernel.run m ρ)
    obtain ⟨hx, hw, hs⟩ := Cert.ScaledLinear.Finite.reals_of_pre _ _ _ _ (hpre c)
    exact Cert.ScaledLinear.Kernel.result_eq m c hx hw hs
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ScaledLinear.Reference.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
